-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : FVec F S384x128 .f32) (main_arg1 : FVec F S384x128 .f32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  main_v8
-- ==== Kernel.lean ====
abbrev S384x128 : Shape := ⟨2, ![384, 128]⟩
abbrev S_ : Shape := ⟨0, ![]⟩
abbrev S384 : Shape := ⟨1, ![384]⟩
abbrev S384x1 : Shape := ⟨2, ![384, 1]⟩
abbrev S128x384 : Shape := ⟨2, ![128, 384]⟩
abbrev S384x384 : Shape := ⟨2, ![384, 384]⟩
abbrev S16x384 : Shape := ⟨2, ![16, 384]⟩
abbrev S16x384x1 : Shape := ⟨3, ![16, 384, 1]⟩
abbrev S16x1x384 : Shape := ⟨3, ![16, 1, 384]⟩
abbrev S16x384x384 : Shape := ⟨3, ![16, 384, 384]⟩

abbrev nBuf : Space → Nat
  | .hbm => 65
  | .vmem => 8
  | .smem => 0
  | _ => 0

abbrev bufTy : (tb : Table) → Fin (tcTables nBuf tb) → BufTy
  | .hbm, ⟨0, _⟩ => ⟨S384x128, .f32⟩
  | .hbm, ⟨1, _⟩ => ⟨S384x128, .f32⟩
  | .hbm, ⟨2, _⟩ => ⟨S384x128, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S384x1, .f32⟩
  | .hbm, ⟨7, _⟩ => ⟨S_, .f32⟩
  | .hbm, ⟨8, _⟩ => ⟨S384x1, .f32⟩
  | .hbm, ⟨9, _⟩ => ⟨S384x1, .f32⟩
  | .hbm, ⟨10, _⟩ => ⟨S384x128, .f32⟩
  | .hbm, ⟨11, _⟩ => ⟨S384x128, .f32⟩
  | .hbm, ⟨12, _⟩ => ⟨S128x384, .f32⟩
  | .hbm, ⟨13, _⟩ => ⟨S384x384, .f32⟩
  | .hbm, ⟨14, _⟩ => ⟨S_, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x128, .f32⟩
  | .hbm, ⟨34, _⟩ => ⟨S_, .f32⟩
  | .hbm, ⟨35, _⟩ => ⟨S384, .f32⟩
  | .hbm, ⟨36, _⟩ => ⟨S384x1, .f32⟩
  | .hbm, ⟨37, _⟩ => ⟨S384x1, .f32⟩
  | .hbm, ⟨38, _⟩ => ⟨S_, .f32⟩
  | .hbm, ⟨39, _⟩ => ⟨S384x1, .f32⟩
  | .hbm, ⟨40, _⟩ => ⟨S384x1, .f32⟩
  | .hbm, ⟨41, _⟩ => ⟨S384x128, .f32⟩
  | .hbm, ⟨42, _⟩ => ⟨S384x128, .f32⟩
  | .hbm, ⟨43, _⟩ => ⟨S128x384, .f32⟩
  | .hbm, ⟨44, _⟩ => ⟨S384x384, .f32⟩
  | .hbm, ⟨45, _⟩ => ⟨S_, .f32⟩
  | .hbm, ⟨46, _⟩ => ⟨S384x384, .f32⟩
  | .hbm, ⟨47, _⟩ => ⟨S384x384, .f32⟩
  | .hbm, ⟨48, _⟩ => ⟨S384x384, .f32⟩
  | .hbm, ⟨49, _⟩ => ⟨S384x384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_cst_12 : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_call3_v0 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x128_0_1 : S384x1.BroadcastsInDim S384x128 (![0, 1] : Fin 2 → Fin S384x128.rank)
  transposes_S384x128_S128x384_1_0 : S384x128.Transposes [1, 0] S128x384
  bcast_S_S384x384 : S_.BroadcastsInDim S384x384 (![] : Fin 0 → Fin S384x384.rank)
  reducesTo_S384x384_S_d0_1 : S384x384.ReducesTo [0, 1] S_
  inb_S16x384_S16x384_0_0 : ∀ a, (![0, 0] : Fin 2 → Nat) a + S16x384.size a ≤ S16x384.size a
  h_S16x384 : 0 < S16x384.numel
  shapeCasts_S16x384_S16x384 : S16x384.ShapeCasts S16x384
  shapeCasts_S16x384_S16x384x1 : S16x384.ShapeCasts S16x384x1
  shapeCasts_S16x384_S16x1x384 : S16x384.ShapeCasts S16x1x384
  broadcasts_S16x384x1_S16x384x384 : S16x384x1.Broadcasts S16x384x384
  broadcasts_S16x1x384_S16x384x384 : S16x1x384.Broadcasts S16x384x384
  reduces_S16x384x384_S16x384 : S16x384x384.Reduces [2] S16x384
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x384.size a ≤ S384x384.size a
  hwx0_0 : ∀ i : grid0.Coords, EltTy.bits .f32 = 32 ∨ (Rect.block (s := S384x384) S16x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x384.size a ≤ S384x384.size a
  hwx0_1 : ∀ i : grid0.Coords, EltTy.bits .f32 = 32 ∨ (Rect.block (s := S384x384) S16x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x384.size a ≤ S384x384.size a
  hwx0_2 : ∀ i : grid0.Coords, EltTy.bits .f32 = 32 ∨ (Rect.block (s := S384x384) S16x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x384.size a ≤ S384x384.size a
  hwx0_3 : ∀ i : grid0.Coords, EltTy.bits .f32 = 32 ∨ (Rect.block (s := S384x384) S16x384.size (cc0_transform_3 i) (hinb0_3 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_v28) S16x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S16x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S16x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S384x128 : Shape := ⟨2, ![384, 128]⟩
abbrev S_ : Shape := ⟨0, ![]⟩
abbrev S384 : Shape := ⟨1, ![384]⟩
abbrev S384x1 : Shape := ⟨2, ![384, 1]⟩
abbrev S128x384 : Shape := ⟨2, ![128, 384]⟩
abbrev S384x384 : Shape := ⟨2, ![384, 384]⟩
abbrev S384x384x1 : Shape := ⟨3, ![384, 384, 1]⟩
abbrev S384x1x384 : Shape := ⟨3, ![384, 1, 384]⟩
abbrev S384x384x384 : Shape := ⟨3, ![384, 384, 384]⟩

abbrev nBuf : Space → Nat
  | .hbm => 100
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384x128, .f32⟩
  | .hbm, ⟨2, _⟩ => ⟨S384x128, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S384x1, .f32⟩
  | .hbm, ⟨7, _⟩ => ⟨S_, .f32⟩
  | .hbm, ⟨8, _⟩ => ⟨S384x1, .f32⟩
  | .hbm, ⟨9, _⟩ => ⟨S384x1, .f32⟩
  | .hbm, ⟨10, _⟩ => ⟨S384x128, .f32⟩
  | .hbm, ⟨11, _⟩ => ⟨S384x128, .f32⟩
  | .hbm, ⟨12, _⟩ => ⟨S128x384, .f32⟩
  | .hbm, ⟨13, _⟩ => ⟨S384x384, .f32⟩
  | .hbm, ⟨14, _⟩ => ⟨S_, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384x1, .f32⟩
  | .hbm, ⟨34, _⟩ => ⟨S384x1x384, .f32⟩
  | .hbm, ⟨35, _⟩ => ⟨S384x384x384, .f32⟩
  | .hbm, ⟨36, _⟩ => ⟨S384x384x384, .f32⟩
  | .hbm, ⟨37, _⟩ => ⟨S384x384x384, .f32⟩
  | .hbm, ⟨38, _⟩ => ⟨S384x128, .f32⟩
  | .hbm, ⟨39, _⟩ => ⟨S_, .f32⟩
  | .hbm, ⟨40, _⟩ => ⟨S384, .f32⟩
  | .hbm, ⟨41, _⟩ => ⟨S384x1, .f32⟩
  | .hbm, ⟨42, _⟩ => ⟨S384x1, .f32⟩
  | .hbm, ⟨43, _⟩ => ⟨S_, .f32⟩
  | .hbm, ⟨44, _⟩ => ⟨S384x1, .f32⟩
  | .hbm, ⟨45, _⟩ => ⟨S384x1, .f32⟩
  | .hbm, ⟨46, _⟩ => ⟨S384x128, .f32⟩
  | .hbm, ⟨47, _⟩ => ⟨S384x128, .f32⟩
  | .hbm, ⟨48, _⟩ => ⟨S128x384, .f32⟩
  | .hbm, ⟨49, _⟩ => ⟨S384x384, .f32⟩
  | .hbm, ⟨50, _⟩ => ⟨S_, .f32⟩
  | .hbm, ⟨51, _⟩ => ⟨S384x384, .f32⟩
  | .hbm, ⟨52, _⟩ => ⟨S384x384, .f32⟩
  | .hbm, ⟨53, _⟩ => ⟨S384x1x384, .f32⟩
  | .hbm, ⟨54, _⟩ => ⟨S384x384x1, .f32⟩
  | .hbm, ⟨55, _⟩ => ⟨S384x384x384, .f32⟩
  | .hbm, ⟨56, _⟩ => ⟨S384x384x384, .f32⟩
  | .hbm, ⟨57, _⟩ => ⟨S384x384x384, .f32⟩
  | .hbm, ⟨58, _⟩ => ⟨S_, .f32⟩
  | .hbm, ⟨59, _⟩ => ⟨S384x384x384, .f32⟩
  | .hbm, ⟨60, _⟩ => ⟨S384x384x384, .f32⟩
  | .hbm, ⟨61, _⟩ => ⟨S_, .f32⟩
  | .hbm, ⟨62, _⟩ => ⟨S384x384x384, .f32⟩
  | .hbm, ⟨63, _⟩ => ⟨S384x384x384, .f32⟩
  | .hbm, ⟨64, _⟩ => ⟨S_, .f32⟩
  | .hbm, ⟨65, _⟩ => ⟨S384x384x384, .f32⟩
  | .hbm, ⟨66, _⟩ => ⟨S384x384x384, .i1⟩
  | .hbm, ⟨67, _⟩ => ⟨S_, .f32⟩
  | .hbm, ⟨68, _⟩ => ⟨S384x384x384, .f32⟩
  | .hbm, ⟨69, _⟩ => ⟨S384x384x384, .i1⟩
  | .hbm, ⟨70, _⟩ => ⟨S384x384x384, .i1⟩
  | .hbm, ⟨71, _⟩ => ⟨S384x384x384, .f32⟩
  | .hbm, ⟨72, _⟩ => ⟨S384x384x384, .f32⟩
  | .hbm, ⟨73, _⟩ => ⟨S384x384x384, .f32⟩
  | .hbm, ⟨74, _⟩ => ⟨S_, .f32⟩
  | .hbm, ⟨75, _⟩ => ⟨S384x384, .f32⟩
  | .hbm, ⟨76, _⟩ => ⟨S_, .f32⟩
  | .hbm, ⟨77, _⟩ => ⟨S384x384, .f32⟩
  | .hbm, ⟨78, _⟩ => ⟨S384x384, .i1⟩
  | .hbm, ⟨79, _⟩ => ⟨S384x384, .f32⟩
  | .hbm, ⟨80, _⟩ => ⟨S_, .f32⟩
  | .hbm, ⟨81, _⟩ => ⟨S384x384, .f32⟩
  | .hbm, ⟨82, _⟩ => ⟨S384x384, .f32⟩
  | .hbm, ⟨83, _⟩ => ⟨S384x384, .f32⟩
  | .hbm, ⟨84, _⟩ => ⟨S384x384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_cst_18 : Ref sig .tc := ⟨.hbm, 93, rfl⟩
abbrev main_call3_v0 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_call4_v0 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x128_0_1 : S384x1.BroadcastsInDim S384x128 (![0, 1] : Fin 2 → Fin S384x128.rank)
  transposes_S384x128_S128x384_1_0 : S384x128.Transposes [1, 0] S128x384
  bcast_S_S384x384 : S_.BroadcastsInDim S384x384 (![] : Fin 0 → Fin S384x384.rank)
  reducesTo_S384x384_S_d0_1 : S384x384.ReducesTo [0, 1] S_
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  reducesTo_S384x384x384_S384x384_d2 : S384x384x384.ReducesTo [2] S384x384
  dot_S384x128_S128x384_S384x384_1_0_0_1_n_n_wf : DotDims.WF S384x128 S128x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.Spec.lean ====
/-
  The triplet term of both programs, as functions on the extended reals.

  Fix a row `i`.  With `a = d i j`, `b k = d i k` (pairwise distances), `n k` the negative-pair weight of
  `(i, k)` and `p` the positive-pair weight of `(i, j)`:

  * the kernel forms `x k = (1/2 + a) - b k`, keeps it where `0 < x k ≤ 1/2` (else `0`), multiplies by
    `n k`, takes the maximum over `k` from `-∞`, and multiplies the maximum by `p` (`kentry`);
  * the reference forms `t k = max (1/2 - (b k - a)) 0`, the indicator of `0 < t k ≤ 1/2` as `0` or `1`,
    multiplies `t k · (indicator · (p · n k))`, takes the maximum over `k` from `-∞`, and adds to the
    maximum `M` the product of the indicator of `M ≤ 0` with `0` (`rentry`).

  For real distances and `0 ≤ p` the two agree (`entry_eq`): `x k = 1/2 - (b k - a)` on the reals, the
  kept value is `t k` times its indicator, multiplication of extended reals is commutative and associative,
  multiplication by a nonnegative extended real is monotone and so commutes with a maximum over a nonempty
  range, and the last summand is `0`.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-- The shape of the pairwise tables. -/
abbrev S2 : Shape := ⟨2, ![384, 384]⟩

/-- The margin `1/2`, as the f32 word both programs spell. -/
abbrev half : EReal := Ideal.ofBits .f32 0x3F000000#32
/-- `0`, as the f32 word both programs spell. -/
abbrev zero : EReal := Ideal.ofBits .f32 0x00000000#32
/-- `-∞`, the word both maxima start from. -/
abbrev ninf : EReal := Ideal.ofBits .f32 0xFF800000#32

/-- The kernel's weighted term at one `k`. -/
def kterm (a b n : EReal) : EReal :=
  Scalar.select (IntOp.andi (Ideal.cmp .ogt ((half + a) - b) zero) (Ideal.cmp .ole ((half + a) - b) half))
    ((half + a) - b) zero * n

/-- The kernel's entry: the positive-pair weight times the maximum over `k`. -/
def kentry (p a : EReal) (b n : Fin 384 → EReal) : EReal :=
  p * (Finset.univ : Finset (Fin 384)).fold max ninf (fun k => kterm a (b k) (n k))

/-- The reference's weighted term at one `k`. -/
def rterm (p a b n : EReal) : EReal :=
  max (half - (b - a)) zero
    * ((((IntOp.andi (Ideal.cmp .ogt (max (half - (b - a)) zero) zero)
          (Ideal.cmp .ole (max (half - (b - a)) zero) half)).toNat : ℝ) : EReal) * (p * n))

/-- The reference's maximum over `k`. -/
def rmax (p a : EReal) (b n : Fin 384 → EReal) : EReal :=
  (Finset.univ : Finset (Fin 384)).fold max ninf (fun k => rterm p a (b k) (n k))

/-- The reference's entry: the maximum plus (the indicator of "the maximum is at most zero") times zero. -/
def rentry (p a : EReal) (b n : Fin 384 → EReal) : EReal :=
  rmax p a b n + (((Ideal.cmp .ole (rmax p a b n) zero).toNat : ℝ) : EReal) * zero

/-- The kernel's table entry `(i, j)` from the three pairwise tables. -/
def entryAt (d n p : S2.Idx → EReal) (i j : Fin 384) : EReal :=
  kentry (p (ix2 i j)) (d (ix2 i j)) (fun k => d (ix2 i k)) (fun k => n (ix2 i k))

/-- The kernel's whole output table. -/
def G (d n p : S2.Idx → EReal) : S2.Idx → EReal := fun idx =>
  entryAt d n p ⟨(idx 0).val, idx2_lt0 idx⟩ ⟨(idx 1).val, idx2_lt1 idx⟩

theorem G_ix2 (d n p : S2.Idx → EReal) (i j : Fin 384) : G d n p (ix2 i j) = entryAt d n p i j := rfl

end Cert.Triplet

end
-- ==== Proof.KBlock.lean ====
/-
  The kernel body's stored value at an index of its block.

  A block is 16 rows of the three pairwise tables (distances `x0`, negative-pair weights `x1`, positive-pair
  weights `x2`), each row at full width 384.  At row `b` and column `j` the body stores
  `x2 (b, j) · max_k (keep ((1/2 + x0 (b, j)) - x0 (b, k)) · x1 (b, k))`, the maximum starting from `-∞`:
  `Cert.Triplet.kentry` of the row's entries.
-/
import proofs.«143395_j43215960932893_2_alg».proof.Proof.Spec
import proofs.«143395_j43215960932893_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Triplet.KBlock

open Cert.KernelIdeal Cert.KernelIdeal.Gen Idealize.ShloMosaic Idealize.ShloMosaic.ValueIdx

/-- A row entry laid as a column `[16, 384, 1]` and spread along the last axis reads the entry `(b, j)`. -/
theorem spread_col (v : S16x384.Idx → EReal) (h1 : S16x384.ShapeCasts S16x384x1) (h2 : S16x384x1.Broadcasts S16x384x384)
    (c : EReal) (b : Fin 16) (j k : Fin 384) :
    broadcastTo S16x384x384 (addf (F := Ideal) (φ := .f32) (broadcast S16x384x1 c) (shapeCast S16x384x1 v h1)) h2 (ix3 b j k)
      = c + v (ix2 b j) := by
  rw [broadcastTo_apply _ h2 (ix3 b j k) (ix3 b j (0 : Fin 1)) (fun a => by
    match a with
    | ⟨0, _⟩ => rfl
    | ⟨1, _⟩ => rfl
    | ⟨2, _⟩ => rfl)]
  rw [addf_apply, broadcast_apply]
  rw [shapeCast_apply v h1 (ix3 b j (0 : Fin 1)) (ix2 b j) (by
    rw [Shape.rowMajor_val_two, Shape.rowMajor_val_three]; simp)]

/-- A row laid as `[16, 1, 384]` and spread along the middle axis reads the entry `(b, k)`. -/
theorem spread_row (v : S16x384.Idx → EReal) (h1 : S16x384.ShapeCasts S16x1x384) (h2 : S16x1x384.Broadcasts S16x384x384)
    (b : Fin 16) (j k : Fin 384) :
    broadcastTo S16x384x384 (shapeCast S16x1x384 v h1) h2 (ix3 b j k) = v (ix2 b k) := by
  rw [broadcastTo_apply _ h2 (ix3 b j k) (ix3 b (0 : Fin 1) k) (fun a => by
    match a with
    | ⟨0, _⟩ => rfl
    | ⟨1, _⟩ => rfl
    | ⟨2, _⟩ => rfl)]
  rw [shapeCast_apply v h1 (ix3 b (0 : Fin 1) k) (ix2 b k) (by
    rw [Shape.rowMajor_val_two, Shape.rowMajor_val_three]; simp)]

/-- The difference `(1/2 + x0 (b, j)) - x0 (b, k)` as a `[16, 384, 384]` array. -/
abbrev diffv (x0 : S16x384.Idx → EReal) (h1 : S16x384.ShapeCasts S16x384x1) (h2 : S16x384x1.Broadcasts S16x384x384)
    (h3 : S16x384.ShapeCasts S16x1x384) (h4 : S16x1x384.Broadcasts S16x384x384) : FVec Ideal S16x384x384 .f32 :=
  subf (broadcastTo S16x384x384 (addf (F := Ideal) (φ := .f32) (broadcast S16x384x1 half) (shapeCast S16x384x1 x0 h1)) h2)
    (broadcastTo S16x384x384 (shapeCast S16x1x384 x0 h3) h4)

/-- The kept difference times the negative-pair weight, as a `[16, 384, 384]` array. -/
abbrev weighted (x0 x1 : S16x384.Idx → EReal) (h1 : S16x384.ShapeCasts S16x384x1) (h2 : S16x384x1.Broadcasts S16x384x384)
    (h3 : S16x384.ShapeCasts S16x1x384) (h4 : S16x1x384.Broadcasts S16x384x384) : FVec Ideal S16x384x384 .f32 :=
  mulf (select (andi (cmpf .ogt (diffv x0 h1 h2 h3 h4) (broadcast S16x384x384 zero))
      (cmpf .ole (diffv x0 h1 h2 h3 h4) (broadcast S16x384x384 half))) (diffv x0 h1 h2 h3 h4) (broadcast S16x384x384 zero))
    (broadcastTo S16x384x384 (shapeCast S16x1x384 x1 h3) h4)

/-- That array at `(b, j, k)` is the kernel's term of the row's entries. -/
theorem weighted_at (x0 x1 : S16x384.Idx → EReal) (h1 : S16x384.ShapeCasts S16x384x1) (h2 : S16x384x1.Broadcasts S16x384x384)
    (h3 : S16x384.ShapeCasts S16x1x384) (h4 : S16x1x384.Broadcasts S16x384x384) (b : Fin 16) (j k : Fin 384) :
    weighted x0 x1 h1 h2 h3 h4 (ix3 b j k) = kterm (x0 (ix2 b j)) (x0 (ix2 b k)) (x1 (ix2 b k)) := by
  unfold kterm
  rw [← spread_col x0 h1 h2 half b j k, ← spread_row x0 h3 h4 b j k, ← spread_row x1 h3 h4 b j k]
  rfl

/-- The index over `(b, j)` with `k` on the reduced last axis. -/
theorem lift_ix (h : S16x384x384.Reduces [2] S16x384) (b : Fin 16) (j : Fin 384) (k : Fin (S16x384x384.size 2)) :
    h.lift (ix2 b j) k = ix3 b j (Fin.cast (rfl : S16x384x384.size 2 = 384) k) := by
  funext c; apply Fin.ext
  match c with
  | ⟨0, _⟩ => rfl
  | ⟨1, _⟩ => rfl
  | ⟨2, _⟩ => rfl

/-- The body's stored value at row `b`, column `j` of the block. -/
theorem pay_at (x0 x1 x2 : Vec Ideal S16x384 .f32) (b : Fin 16) (j : Fin 384) :
    k0_pay1 (F := Ideal) x0 x1 x2 (ix2 b j)
      = kentry (x2 (ix2 b j)) (x0 (ix2 b j)) (fun k => x0 (ix2 b k)) (fun k => x1 (ix2 b k)) := by
  unfold k0_pay1
  dsimp only
  rw [mulf_apply, shapeCast_self, shapeCast_self, shapeCast_self]
  show x2 (ix2 b j) * multiReduction .maximumf [2] S16x384
      (weighted x0 x1 shapeCasts_S16x384_S16x384x1 broadcasts_S16x384x1_S16x384x384 shapeCasts_S16x384_S16x1x384
        broadcasts_S16x1x384_S16x384x384) 0xFF800000#32 reduces_S16x384x384_S16x384 (.inl rfl) rfl (ix2 b j) = _
  unfold kentry
  refine congrArg (x2 (ix2 b j) * ·) ?_
  refine (Ideal.multiReduction_maximumf_single _ _ _ _ _ (ix2 b j)).trans ?_
  refine congrArg (fun f => Finset.fold max _ f Finset.univ) (funext fun k => ?_)
  exact (congrArg (weighted x0 x1 _ _ _ _) (lift_ix reduces_S16x384x384_S16x384 b j k)).trans
    (weighted_at x0 x1 _ _ _ _ b j _)

end Cert.Triplet.KBlock

end
-- ==== Proof.KFinal.lean ====
/-
  The kernel's output table after the run.

  The grid has 24 points; at point `t` every window's block is rows `16 t … 16 t + 15` of its table at full
  width 384 (the index maps send `t` to block `(t, 0)`).  So what point `t` writes back is rows
  `16 t … 16 t + 15` of `Cert.Triplet.G` of the three tables as the region finds them, the 24 blocks cover the
  output table, and the table ends holding `G`.
-/
import proofs.«143395_j43215960932893_2_alg».proof.Proof.KBlock
import proofs.«143395_j43215960932893_2_alg».proof.Proof.Gen.KernelIdeal.Frame
import Idealize.ShloMosaic.Lib.Pipeline.Value

noncomputable section

namespace Cert.Triplet.KFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the 24 points: every window's block at point `t` is block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `16 t … 16 t + 15` of its table, at full width. -/
theorem iblk0_at (c : Dev nD) (t : Fin cfg0.N) (b : Fin 16) (k : Fin 384) (r : Fin 384) (hr : r.val = 16 * t.val + b.val) :
    (iblk m c 0 t : Vec Ideal S16x384 .f32) (ix2 b k) = (V m c main_v28 : S384x384.Idx → EReal) (ix2 r k) := by
  obtain ⟨e00, e01, e10, e11, e20, e21, e30, e31⟩ := idx_facts t
  unfold iblk
  rw [View.read_apply]
  show V m c main_v28 _ = V m c main_v28 _
  refine congrArg (V m c main_v28) ?_
  funext a; apply Fin.ext
  match a with
  | ⟨0, _⟩ => show win0_0.index t (0 : Fin 2) * 16 + 1 * b.val = r.val; rw [e00, hr]; omega
  | ⟨1, _⟩ => show win0_0.index t (1 : Fin 2) * 384 + 1 * k.val = k.val; rw [e01]; omega

/-- Window 1's block at point `t` is rows `16 t … 16 t + 15` of its table, at full width. -/
theorem iblk1_at (c : Dev nD) (t : Fin cfg0.N) (b : Fin 16) (k : Fin 384) (r : Fin 384) (hr : r.val = 16 * t.val + b.val) :
    (iblk m c 1 t : Vec Ideal S16x384 .f32) (ix2 b k) = (V m c main_v19 : S384x384.Idx → EReal) (ix2 r k) := by
  obtain ⟨e00, e01, e10, e11, e20, e21, e30, e31⟩ := idx_facts t
  unfold iblk
  rw [View.read_apply]
  show V m c main_v19 _ = V m c main_v19 _
  refine congrArg (V m c main_v19) ?_
  funext a; apply Fin.ext
  match a with
  | ⟨0, _⟩ => show win0_1.index t (0 : Fin 2) * 16 + 1 * b.val = r.val; rw [e10, hr]; omega
  | ⟨1, _⟩ => show win0_1.index t (1 : Fin 2) * 384 + 1 * k.val = k.val; rw [e11]; omega

/-- Window 2's block at point `t` is rows `16 t … 16 t + 15` of its table, at full width. -/
theorem iblk2_at (c : Dev nD) (t : Fin cfg0.N) (b : Fin 16) (k : Fin 384) (r : Fin 384) (hr : r.val = 16 * t.val + b.val) :
    (iblk m c 2 t : Vec Ideal S16x384 .f32) (ix2 b k) = (V m c main_v17 : S384x384.Idx → EReal) (ix2 r k) := by
  obtain ⟨e00, e01, e10, e11, e20, e21, e30, e31⟩ := idx_facts t
  unfold iblk
  rw [View.read_apply]
  show V m c main_v17 _ = V m c main_v17 _
  refine congrArg (V m c main_v17) ?_
  funext a; apply Fin.ext
  match a with
  | ⟨0, _⟩ => show win0_2.index t (0 : Fin 2) * 16 + 1 * b.val = r.val; rw [e20, hr]; omega
  | ⟨1, _⟩ => show win0_2.index t (1 : Fin 2) * 384 + 1 * k.val = k.val; rw [e21]; omega

/-- The output window's block at point `t` sits at rows `16 t … 16 t + 15`. -/
theorem emb3_at (t : Fin cfg0.N) (b : Fin 16) (j : Fin 384) (r : Fin 384) (hr : r.val = 16 * t.val + b.val) :
    ((cfg0.win 3).blk t).view.emb (ix2 b j) = (ix2 r j : S384x384.Idx) := by
  obtain ⟨e00, e01, e10, e11, e20, e21, e30, e31⟩ := idx_facts t
  funext a; apply Fin.ext
  match a with
  | ⟨0, _⟩ => show win0_3.index t (0 : Fin 2) * 16 + 1 * b.val = r.val; rw [e30, hr]; omega
  | ⟨1, _⟩ => show win0_3.index t (1 : Fin 2) * 384 + 1 * j.val = j.val; rw [e31]; omega

/-- WHAT POINT `t` WRITES BACK is block `t` of `G` of the three tables as the region finds them. -/
theorem flushed_eq (c : Dev nD) (t : Fin cfg0.N) :
    (dats m 0 c).flushed 3 t = ((cfg0.win 3).blk t).view.read (Elt Ideal)
      (G (V m c main_v28) (V m c main_v19) (V m c main_v17)) := by
  show (cfg0.win 3).cut (grid0.coords t) ((dats m 0 c).after 3 t) = _
  rw [after0_3]
  unfold out0_3
  rw [View.canon_unit_zero hz]
  simp only [View.ld_unit_zero (S := S16x384) hz]
  funext y
  obtain ⟨b, j, rfl⟩ : ∃ (b : Fin 16) (j : Fin 384), y = ix2 b j := ⟨y 0, y 1, eq_ix2 y⟩
  have ht : t.val < 24 := Nat.lt_of_lt_of_eq t.isLt N_0
  have hb : b.val < 16 := b.isLt
  let r : Fin 384 := ⟨16 * t.val + b.val, by omega⟩
  show k0_pay1 (F := Ideal) (iblk m c 0 t) (iblk m c 1 t) (iblk m c 2 t) (ix2 b j)
    = G (V m c main_v28) (V m c main_v19) (V m c main_v17) (((cfg0.win 3).blk t).view.emb (ix2 b j))
  rw [emb3_at t b j r rfl, G_ix2]
  refine (KBlock.pay_at (iblk m c 0 t) (iblk m c 1 t) (iblk m c 2 t) b j).trans ?_
  unfold entryAt
  rw [iblk2_at m c t b j r rfl, iblk0_at m c t b j r rfl]
  refine congrArg₂ (fun f g => kentry _ _ f g) (funext fun k => iblk0_at m c t b k r rfl) (funext fun k => iblk1_at m c t b k r rfl)

/-- An index of the table is in point `t`'s block iff each coordinate is in the block's range on its axis. -/
theorem mem_blk3 (t : Fin cfg0.N) (i : S384x384.Idx) :
    i ∈ ((cfg0.win 3).blk t).view.set ↔ ∀ a : Fin 2, win0_3.index t a * S16x384.size a ≤ (i a).val
      ∧ (i a).val < win0_3.index t a * S16x384.size a + S16x384.size a := by
  show i ∈ ((View.whole main_v29).slice (win0_3.rect t)).set ↔ _
  rw [View.set_slice_whole, Rect.mem_set_unit]
  exact Iff.rfl

/-- Every index of the table is in some point's block: row `r` is in the block of point `r / 16`. -/
theorem cover3 (i : S384x384.Idx) :
    ∃ t : Fin cfg0.N, (cfg0.win 3).flush t = true ∧ i ∈ ((cfg0.win 3).blk t).view.set := by
  have hi0 : (i 0).val < 384 := (i 0).isLt
  have hi1 : (i 1).val < 384 := (i 1).isLt
  let t : Fin cfg0.N := ⟨(i 0).val / 16, Nat.lt_of_lt_of_eq (by omega : (i 0).val / 16 < 24) N_0.symm⟩
  obtain ⟨e00, e01, e10, e11, e20, e21, e30, e31⟩ := idx_facts t
  refine ⟨t, flush0_3 t, ?_⟩
  rw [mem_blk3]
  intro a
  match a with
  | ⟨0, _⟩ =>
    show win0_3.index t (0 : Fin 2) * 16 ≤ (i 0).val ∧ (i 0).val < win0_3.index t (0 : Fin 2) * 16 + 16
    rw [e30]
    show (i 0).val / 16 * 16 ≤ (i 0).val ∧ (i 0).val < (i 0).val / 16 * 16 + 16
    omega
  | ⟨1, _⟩ =>
    show win0_3.index t (1 : Fin 2) * 384 ≤ (i 1).val ∧ (i 1).val < win0_3.index t (1 : Fin 2) * 384 + 384
    rw [e31]
    omega

/-- THE OUTPUT TABLE after the run is `G` of the three tables as the region finds them. -/
theorem final3 (c : Dev nD) :
    (dats m 0 c).arrAt 3 cfg0.N = G (V m c main_v28) (V m c main_v19) (V m c main_v17) :=
  (dats m 0 c).arrAt_eq_of_cover 3 _ (fun t _ => flushed_eq m c t) cover3

end Cert.Triplet.KFinal

end
-- ==== Proof.Tail.lean ====
/-
  The shared tail of both programs: the mean of the table o under the weights p, guarded against an empty
  weight.  With den = Σ p and num = Σ (o · p), both summed from 0 over the whole table, the result is
  num / den where den > 0 (the divisor is den itself there and 1 elsewhere) and 0 where den ≤ 0.
  The definition is generic in the float instance and spells the operations exactly as both programs do,
  so that each program's last operations are this function of its two tables by unfolding alone.
-/
import Idealize.ShloMosaic.PureOps
import proofs.«143395_j43215960932893_2_alg».proof.Proof.Spec

noncomputable section

namespace Cert.Triplet

open Idealize.ShloMosaic

/-- The shape of a scalar. -/
abbrev S0 : Shape := ⟨0, ![]⟩

/-- The guarded weighted mean: Σ (o · p) / Σ p where Σ p > 0, and 0 otherwise. -/
def tail {F : FTy → Type} [FloatOps F] (hr : S2.ReducesTo [0, 1] S0) (h0 : 0 < S0.numel)
    (o p : FVec F S2 .f32) : FVec F S0 .f32 :=
  select (cmpf .ogt (Host.reduceAdd p (constant S0 .f32 0x00000000#32) hr h0) (constant S0 .f32 0x00000000#32))
    (Host.divf (Host.reduceAdd (mulf o p) (constant S0 .f32 0x00000000#32) hr h0)
      (select (cmpf .ogt (Host.reduceAdd p (constant S0 .f32 0x00000000#32) hr h0) (constant S0 .f32 0x00000000#32))
        (Host.reduceAdd p (constant S0 .f32 0x00000000#32) hr h0) (id (constant S0 .f32 0x3F800000#32))))
    (id (constant S0 .f32 0x00000000#32))

end Cert.Triplet

end
-- ==== Proof.KTail.lean ====
/-
  The kernel program's host operations after its custom call are the shared tail: from any contents of the
  device's buffers, the buffer they end in holds the guarded weighted mean of the table the call wrote under
  the table of positive-pair weights.  Each operation writes one buffer from earlier ones, so the contents
  after the sixteen operations is their composition, which is the tail by unfolding.
-/
import proofs.«143395_j43215960932893_2_alg».proof.Proof.Tail
import proofs.«143395_j43215960932893_2_alg».proof.Proof.Gen.KernelIdeal.Launch
import Idealize.ShloMosaic.Lib.StableHlo.Run

noncomputable section

namespace Cert.Triplet.KTail

open Cert.KernelIdeal Cert.KernelIdeal.Gen Idealize.ShloMosaic Idealize.ShloMosaic.StableHlo

/-- After the kernel's last sixteen host operations, its result buffer holds the tail of the tables in
    v29 (the entries) and v17 (the weights) as they stood before. -/
theorem ktail {F : FTy → Type} [FloatOps F] (W : Valuation τ sig (Elt F)) :
    StableHlo.after (List.flatten [hostOps1, hostOps1_1, hostOps1_2, hostOps1_3]) W (Proc.devRef .tc main_v37)
      = Cert.Triplet.tail reducesTo_S384x384_S_d0_1 h_S_ (W (Proc.devRef .tc main_v29)) (W (Proc.devRef .tc main_v17)) := by
  simp only [hostOps1, hostOps1_1, hostOps1_2, hostOps1_3, List.flatten_cons, List.flatten_nil, List.append_nil,
    List.cons_append, List.nil_append]
  after_results_simp
  unfold Cert.Triplet.tail
  rfl

end Cert.Triplet.KTail

end
-- ==== Proof.KHost.lean ====
/-
  The kernel program's host operations before its region compute the same three pairwise tables as the
  reference program.

  Before the region the kernel program normalizes the rows of its first argument, forms the pairwise
  distance table, divides it by its clamped mean, negates, divides by the temperature and exponentiates
  (the positive-pair weight `p`), and subtracts that from one (the negative-pair weight `n`); it
  normalizes the rows of its second argument and forms its pairwise distance table `d`.  These are, line
  for line, the reference program's first stages on the same arguments, so each table the region finds is
  the reference's stage of the launched argument.
-/
import proofs.«143395_j43215960932893_2_alg».proof.Proof.Gen.KernelIdeal.Frame
import proofs.«143395_j43215960932893_2_alg».proof.Proof.Gen.ReferenceIdeal.Read
import Idealize.ShloMosaic.Lib.StableHlo.Run

noncomputable section

namespace Cert.Triplet.KHost

open Cert.KernelIdeal Cert.KernelIdeal.Gen
open Idealize.ShloMosaic Idealize.ShloMosaic.TcCoe Idealize.SL.Sem Idealize.ShloMosaic.StableHlo

/-- The positive-pair weight table after the host lines is the reference's, of the first argument. -/
theorem pre_v17 {F : FTy → Type} [FloatOps F] (W : Valuation τ sig (Elt F)) :
    (StableHlo.after (List.flatten [hostOps0, hostOps0_1, hostOps0_2, hostOps0_3]) W (Proc.devRef .tc main_v17) : S384x384.Idx → F .f32)
      = Cert.ReferenceIdeal.Read.val_main_v17 (F := F) (W (Proc.devRef .tc main_arg0)) := by
  simp only [hostOps0, hostOps0_1, hostOps0_2, hostOps0_3, List.flatten_cons, List.flatten_nil, List.append_nil,
    List.cons_append, List.nil_append]
  after_results_simp
  unfold Cert.ReferenceIdeal.Read.val_main_v17 Cert.ReferenceIdeal.Read.val_main_v16 Cert.ReferenceIdeal.Read.val_main_v15
    Cert.ReferenceIdeal.Read.val_main_cst_4 Cert.ReferenceIdeal.Read.val_main_v14 Cert.ReferenceIdeal.Read.val_main_v13
    Cert.ReferenceIdeal.Read.val_main_v12 Cert.ReferenceIdeal.Read.val_main_v11 Cert.ReferenceIdeal.Read.val_main_cst_3
    Cert.ReferenceIdeal.Read.val_main_v10 Cert.ReferenceIdeal.Read.val_main_cst_2 Cert.ReferenceIdeal.Read.val_main_v9
    Cert.ReferenceIdeal.Read.val_main_cst_1 Cert.ReferenceIdeal.Read.val_main_v8 Cert.ReferenceIdeal.Read.val_main_v7
    Cert.ReferenceIdeal.Read.val_main_cst_0 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_cst Cert.ReferenceIdeal.Read.val_main_v0
    Cert.ReferenceIdeal.Read.val_main_call0_v2 Cert.ReferenceIdeal.Read.val_main_call0_v1 Cert.ReferenceIdeal.Read.val_main_call0_cst
    Cert.ReferenceIdeal.Read.val_main_call0_v0
  rfl

/-- The negative-pair weight table after the host lines is the reference's, of the first argument. -/
theorem pre_v19 {F : FTy → Type} [FloatOps F] (W : Valuation τ sig (Elt F)) :
    (StableHlo.after (List.flatten [hostOps0, hostOps0_1, hostOps0_2, hostOps0_3]) W (Proc.devRef .tc main_v19) : S384x384.Idx → F .f32)
      = Cert.ReferenceIdeal.Read.val_main_v19 (F := F) (W (Proc.devRef .tc main_arg0)) := by
  simp only [hostOps0, hostOps0_1, hostOps0_2, hostOps0_3, List.flatten_cons, List.flatten_nil, List.append_nil,
    List.cons_append, List.nil_append]
  after_results_simp
  unfold Cert.ReferenceIdeal.Read.val_main_v19 Cert.ReferenceIdeal.Read.val_main_v18 Cert.ReferenceIdeal.Read.val_main_cst_5
    Cert.ReferenceIdeal.Read.val_main_v17 Cert.ReferenceIdeal.Read.val_main_v16 Cert.ReferenceIdeal.Read.val_main_v15
    Cert.ReferenceIdeal.Read.val_main_cst_4 Cert.ReferenceIdeal.Read.val_main_v14 Cert.ReferenceIdeal.Read.val_main_v13
    Cert.ReferenceIdeal.Read.val_main_v12 Cert.ReferenceIdeal.Read.val_main_v11 Cert.ReferenceIdeal.Read.val_main_cst_3
    Cert.ReferenceIdeal.Read.val_main_v10 Cert.ReferenceIdeal.Read.val_main_cst_2 Cert.ReferenceIdeal.Read.val_main_v9
    Cert.ReferenceIdeal.Read.val_main_cst_1 Cert.ReferenceIdeal.Read.val_main_v8 Cert.ReferenceIdeal.Read.val_main_v7
    Cert.ReferenceIdeal.Read.val_main_cst_0 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_cst Cert.ReferenceIdeal.Read.val_main_v0
    Cert.ReferenceIdeal.Read.val_main_call0_v2 Cert.ReferenceIdeal.Read.val_main_call0_v1 Cert.ReferenceIdeal.Read.val_main_call0_cst
    Cert.ReferenceIdeal.Read.val_main_call0_v0
  rfl

/-- The pairwise distance table after the host lines is the reference's, of the second argument. -/
theorem pre_v28 {F : FTy → Type} [FloatOps F] (W : Valuation τ sig (Elt F)) :
    (StableHlo.after (List.flatten [hostOps0, hostOps0_1, hostOps0_2, hostOps0_3]) W (Proc.devRef .tc main_v28) : S384x384.Idx → F .f32)
      = Cert.ReferenceIdeal.Read.val_main_v33 (F := F) (W (Proc.devRef .tc main_arg1)) := by
  simp only [hostOps0, hostOps0_1, hostOps0_2, hostOps0_3, List.flatten_cons, List.flatten_nil, List.append_nil,
    List.cons_append, List.nil_append]
  after_results_simp
  unfold Cert.ReferenceIdeal.Read.val_main_v33 Cert.ReferenceIdeal.Read.val_main_v32 Cert.ReferenceIdeal.Read.val_main_cst_7
    Cert.ReferenceIdeal.Read.val_main_v31 Cert.ReferenceIdeal.Read.val_main_v30 Cert.ReferenceIdeal.Read.val_main_v29
    Cert.ReferenceIdeal.Read.val_main_v28 Cert.ReferenceIdeal.Read.val_main_v27 Cert.ReferenceIdeal.Read.val_main_v26
    Cert.ReferenceIdeal.Read.val_main_cst_6 Cert.ReferenceIdeal.Read.val_main_v25 Cert.ReferenceIdeal.Read.val_main_call1_v2
    Cert.ReferenceIdeal.Read.val_main_call1_v1 Cert.ReferenceIdeal.Read.val_main_call1_cst Cert.ReferenceIdeal.Read.val_main_call1_v0
  rfl

/-- The region finds the positive-pair weights of the launched first argument. -/
theorem V_v17 {F : FTy → Type} [FloatOps F] (m : (ℓ : Loc nD τ sig) → Buf (Elt F) ℓ) (c : Dev nD) :
    (V m c main_v17 : S384x384.Idx → F .f32)
      = Cert.ReferenceIdeal.Read.val_main_v17 (F := F) (m ((c : Thread nD τ).loc main_arg0)) :=
  pre_v17 (fun b => m (c, b))

/-- The region finds the negative-pair weights of the launched first argument. -/
theorem V_v19 {F : FTy → Type} [FloatOps F] (m : (ℓ : Loc nD τ sig) → Buf (Elt F) ℓ) (c : Dev nD) :
    (V m c main_v19 : S384x384.Idx → F .f32)
      = Cert.ReferenceIdeal.Read.val_main_v19 (F := F) (m ((c : Thread nD τ).loc main_arg0)) :=
  pre_v19 (fun b => m (c, b))

/-- The region finds the pairwise distances of the launched second argument. -/
theorem V_v28 {F : FTy → Type} [FloatOps F] (m : (ℓ : Loc nD τ sig) → Buf (Elt F) ℓ) (c : Dev nD) :
    (V m c main_v28 : S384x384.Idx → F .f32)
      = Cert.ReferenceIdeal.Read.val_main_v33 (F := F) (m ((c : Thread nD τ).loc main_arg1)) :=
  pre_v28 (fun b => m (c, b))

end Cert.Triplet.KHost

end
-- ==== Proof.KRun.lean ====
/-
  The kernel program's run, read: its result is the guarded weighted mean (`Cert.Triplet.tail`) of the table
  `Cert.Triplet.G` of the three pairwise tables under the positive-pair weights, the three tables being the
  reference's own stages of the two arguments.

  The region's output table ends at `G` of the tables as the region finds them; the positive-pair weights are
  an input of the region, which it leaves as it found them; the host operations after the region are the tail of
  those two tables; and the host operations before the region compute the three tables from the arguments
  exactly as the reference does.
-/
import proofs.«143395_j43215960932893_2_alg».proof.Proof.KFinal
import proofs.«143395_j43215960932893_2_alg».proof.Proof.KTail
import proofs.«143395_j43215960932893_2_alg».proof.Proof.KHost

noncomputable section

namespace Cert.Triplet.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel program's result on core `c`, as a function of the two arguments. -/
def kres (c : Dev nD) : Buf (Elt Ideal) ((c : Thread nD τ).loc main_v37) :=
  tail (F := Ideal) reducesTo_S384x384_S_d0_1 h_S_
    (G (Cert.ReferenceIdeal.Read.val_main_v33 (F := Ideal) (m ((c : Thread nD τ).loc main_arg1)))
      (Cert.ReferenceIdeal.Read.val_main_v19 (F := Ideal) (m ((c : Thread nD τ).loc main_arg0)))
      (Cert.ReferenceIdeal.Read.val_main_v17 (F := Ideal) (m ((c : Thread nD τ).loc main_arg0))))
    (Cert.ReferenceIdeal.Read.val_main_v17 (F := Ideal) (m ((c : Thread nD τ).loc main_arg0)))

/-- What the host operations after the region leave in the result buffer. -/
theorem result_eq (c : Dev nD) :
    Pipeline.afterTail₀ cfgs (dats m) 0 (V0 m) [hostOps1, hostOps1_1, hostOps1_2, hostOps1_3] c main_v37 = kres m c := by
  unfold Pipeline.afterTail₀ kres
  refine (KTail.ktail _).trans ?_
  refine congrArg₂ (tail (F := Ideal) reducesTo_S384x384_S_d0_1 h_S_) ?_ ?_
  · refine (Pipeline.withArrays_arr spec0 launch0.win.arr_inj c _ _ 3).trans ?_
    refine (KFinal.final3 m c).trans ?_
    exact congr (congr (congrArg G (KHost.V_v28 m c)) (KHost.V_v19 m c)) (KHost.V_v17 m c)
  · refine (Pipeline.withArrays_arr spec0 launch0.win.arr_inj c _ _ 2).trans ?_
    refine ((dats m 0 c).arrAt_in 2 rfl _).trans ?_
    exact (A_eq m c 2).trans (KHost.V_v17 m c)

/-- The kernel program's run with its result named. -/
theorem krun : θ_run defs (onTc (τ := τ) (main (F := Ideal))) ⟨m, fun _ => 0, ρ⟩ fun r => ∀ c : Dev nD,
      r.2.mem ((c.tc : Thread nD τ).loc main_v37) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Triplet.KRun

end
-- ==== Proof.RefTail.lean ====
/-
  The reference program's last operations are the shared tail: its result is the guarded weighted mean of
  its table of row maxima under its table of positive-pair weights.  Each of the stages involved is by
  definition one operation applied to earlier stages, so the equation holds by unfolding.
-/
import proofs.«143395_j43215960932893_2_alg».proof.Proof.Tail
import proofs.«143395_j43215960932893_2_alg».proof.Proof.Gen.ReferenceIdeal.Read

noncomputable section

namespace Cert.Triplet.RefTail

open Idealize.ShloMosaic Cert.ReferenceIdeal Cert.ReferenceIdeal.Read

/-- The reference's result is the tail of its tables v56 (the entries) and v17 (the weights). -/
theorem ref_tail {F : FTy → Type} [FloatOps F] (x0 x1 : (⟨Cert.ReferenceIdeal.S384x128, .f32⟩ : BufTy).Contents (Elt F)) :
    Cert.ReferenceIdeal.Read.val_main_v64 (F := F) x0 x1
      = Cert.Triplet.tail Cert.ReferenceIdeal.Gen.reducesTo_S384x384_S_d0_1 Cert.ReferenceIdeal.Gen.h_S_
          (Cert.ReferenceIdeal.Read.val_main_v56 (F := F) x0 x1) (Cert.ReferenceIdeal.Read.val_main_v17 (F := F) x0) := by
  unfold val_main_v64 val_main_v63 val_main_v62 val_main_v61 val_main_v60 val_main_v59 val_main_v58 val_main_v57
    val_main_call4_v0 val_main_call3_v0 val_main_cst_19 val_main_cst_18 val_main_cst_17 val_main_cst_16
    val_main_cst_15 val_main_cst_14 Cert.Triplet.tail
  rfl

end Cert.Triplet.RefTail

end
-- ==== Proof.SpecLaw.lean ====
/-
  The two triplet entries agree on real distances and a nonnegative positive-pair weight.

  The argument, in order: the three float words denote `1/2`, `0` and `-∞`; on the reals
  `(1/2 + a) - b = 1/2 - (b - a)`; a value kept where `0 < x ≤ 1/2` (else `0`) is `max x 0` times the
  `0`/`1` indicator of `0 < max x 0 ≤ 1/2`; multiplication of extended reals is commutative and associative,
  so the reference's term is the weight `p` times the kernel's term; multiplication by a nonnegative extended
  real is monotone, so it commutes with a maximum over a nonempty finite range; and the reference's last
  summand is an indicator times `0`, which is `0`.
-/
import proofs.«143395_j43215960932893_2_alg».proof.Proof.Spec

noncomputable section

namespace Cert.Triplet

open Idealize.ShloMosaic Idealize.ShloMosaic.ValueIdx

/-! ### The three words -/

/-- The word `0x3F000000` denotes the real `1/2`. -/
theorem half_eq : half = ((1 / 2 : ℝ) : EReal) := by
  simp [half, Ideal.ofBits, Ideal.ieee, -EReal.coe_mul]; norm_num

/-- The word `0x00000000` denotes `0`. -/
theorem zero_eq : zero = 0 := Ideal.ofBits_zero_f32

/-- The word `0xFF800000` denotes `-∞`. -/
theorem ninf_eq : ninf = ⊥ := by
  simp [ninf, Ideal.ofBits, Ideal.ieee]

/-! ### The exponential -/

/-- exp on the extended reals is nonnegative -/
theorem exp_nonneg (x : EReal) : 0 ≤ Ideal.exp x := by
  induction x using EReal.rec with
  | bot => rw [Ideal.exp_bot]
  | coe r =>
    rw [Ideal.exp_coe]
    exact_mod_cast (Real.exp_pos r).le
  | top => rw [Ideal.exp_top]; exact le_top

/-! ### The margin on the reals -/

/-- On real distances the kernel's and the reference's margins are the same real number. -/
theorem margin_eq (a b : ℝ) :
    (half + (a : EReal)) - (b : EReal) = half - ((b : EReal) - (a : EReal)) := by
  rw [half_eq]
  rw [← EReal.coe_add, ← EReal.coe_sub, ← EReal.coe_sub, ← EReal.coe_sub]
  congr 1
  ring

/-! ### The kept value is the clamped value times its indicator -/

/-- A value kept where `0 < x ≤ 1/2` and replaced by `0` elsewhere is `max x 0` times the `0`/`1`
    indicator of `0 < max x 0 ≤ 1/2`. -/
theorem keep_eq (x h : EReal) :
    Scalar.select (IntOp.andi (Ideal.cmp .ogt x 0) (Ideal.cmp .ole x h)) x 0
      = max x 0 * ((((IntOp.andi (Ideal.cmp .ogt (max x 0) 0) (Ideal.cmp .ole (max x 0) h)).toNat : ℝ)) : EReal) := by
  by_cases h0 : 0 < x
  · have hm : max x 0 = x := max_eq_left h0.le
    rw [hm]
    by_cases h1 : x ≤ h
    · simp [Scalar.select, IntOp.andi, Ideal.cmp, h0, h1]
    · simp [Scalar.select, IntOp.andi, Ideal.cmp, h0, h1]
  · have hm : max x 0 = 0 := max_eq_right (not_lt.mp h0)
    rw [hm]
    simp [Scalar.select, IntOp.andi, Ideal.cmp, h0]

/-! ### The reference's term is the weight times the kernel's term -/

/-- On real distances the reference's term at one `k` is the positive-pair weight times the kernel's. -/
theorem rterm_eq (p : EReal) (a b : ℝ) (n : EReal) :
    rterm p (a : EReal) (b : EReal) n = p * kterm (a : EReal) (b : EReal) n := by
  unfold rterm kterm
  rw [margin_eq, zero_eq, keep_eq]
  rw [← mul_assoc, mul_left_comm, mul_assoc]

/-! ### A nonnegative factor commutes with a maximum over a nonempty range -/

/-- Multiplication by a nonnegative extended real is monotone. -/
theorem mul_mono_left (p : EReal) (hp : 0 ≤ p) : Monotone (fun x : EReal => p * x) :=
  fun _ _ h => mul_le_mul_of_nonneg_left h hp

/-- A nonnegative factor moves inside a maximum taken from `-∞` over a nonempty finite range. -/
theorem mul_fold_max {ι : Type} (p : EReal) (hp : 0 ≤ p) (f : ι → EReal) (s : Finset ι) (hs : s.Nonempty) :
    p * s.fold max ⊥ f = s.fold max ⊥ (fun k => p * f k) := by
  induction hs using Finset.Nonempty.cons_induction with
  | singleton a =>
    rw [Finset.fold_singleton, Finset.fold_singleton, max_bot_right, max_bot_right]
  | cons a s ha hs ih =>
    rw [Finset.fold_cons, Finset.fold_cons, ← ih]
    exact (mul_mono_left p hp).map_max

/-! ### The two entries -/

/-- The reference's maximum is the kernel's entry. -/
theorem rmax_eq (p : EReal) (hp : 0 ≤ p) (a : ℝ) (b : Fin 384 → ℝ) (n : Fin 384 → EReal) :
    rmax p (a : EReal) (fun k => ((b k : ℝ) : EReal)) n
      = kentry p (a : EReal) (fun k => ((b k : ℝ) : EReal)) n := by
  unfold rmax kentry
  rw [ninf_eq, mul_fold_max p hp _ _ Finset.univ_nonempty]
  congr 1
  funext k
  exact rterm_eq p a (b k) (n k)

theorem entry_eq (p : EReal) (hp : 0 ≤ p) (a : ℝ) (b : Fin 384 → ℝ) (n : Fin 384 → EReal) :
    kentry p (a : EReal) (fun k => ((b k : ℝ) : EReal)) n = rentry p (a : EReal) (fun k => ((b k : ℝ) : EReal)) n := by
  unfold rentry
  rw [rmax_eq p hp, zero_eq, mul_zero, add_zero]

end Cert.Triplet

end
-- ==== Proof.RefEntry.lean ====
/-
  The reference program's stages read at an index.

  Fix a row `i` and a column `j`.  The reference builds, for every `k`, the term
  `t k = max (1/2 - (d i k - d i j)) 0`, multiplies it by the indicator of `0 < t k ≤ 1/2` times the
  product of the positive-pair weight of `(i, j)` and the negative-pair weight of `(i, k)`, takes the
  maximum over `k` from `-∞`, and adds to that maximum the indicator of "the maximum is at most zero"
  times zero.  Each stage is an elementwise operation or a broadcast, so the term at `(i, j, k)` is
  `rterm` of four entries of the pairwise tables, the maximum over the last axis is `rmax`, and the
  entry is `rentry`.  The positive-pair weight is an exponential, hence nonnegative.
-/
import proofs.«143395_j43215960932893_2_alg».proof.Proof.Spec
import proofs.«143395_j43215960932893_2_alg».proof.Proof.Gen.ReferenceIdeal.Read
import Idealize.ShloMosaic.PureOps.Reduce
import Idealize.ShloMosaic.PureOps.Ideal.Laws
import Idealize.ShloMosaic.Lib.ValueIdx

noncomputable section

namespace Cert.Triplet.RefEntry

open Cert.ReferenceIdeal Cert.ReferenceIdeal.Read Idealize.ShloMosaic Idealize.ShloMosaic.ValueIdx

/-- Broadcasting a pairwise table along the last axis reads it at `(i, j)`. -/
theorem idx_v20_v22 (i j k : Fin 384) : idx_main_v20 (idx_main_v22 (ix3 i j k)) = ix2 i j :=
  funext fun a => Fin.ext (by match a with | ⟨0, _⟩ => rfl | ⟨1, _⟩ => rfl)

/-- Broadcasting a pairwise table along the middle axis reads it at `(i, k)`. -/
theorem idx_v21_v23 (i j k : Fin 384) : idx_main_v21 (idx_main_v23 (ix3 i j k)) = ix2 i k :=
  funext fun a => Fin.ext (by match a with | ⟨0, _⟩ => rfl | ⟨1, _⟩ => rfl)

theorem idx_v34_v36 (i j k : Fin 384) : idx_main_v34 (idx_main_v36 (ix3 i j k)) = ix2 i k :=
  funext fun a => Fin.ext (by match a with | ⟨0, _⟩ => rfl | ⟨1, _⟩ => rfl)

theorem idx_v35_v37 (i j k : Fin 384) : idx_main_v35 (idx_main_v37 (ix3 i j k)) = ix2 i j :=
  funext fun a => Fin.ext (by match a with | ⟨0, _⟩ => rfl | ⟨1, _⟩ => rfl)

/-- The weighted term of the reference at `(i, j, k)`. -/
theorem v49_at (x0 x1 : (⟨S384x128, .f32⟩ : BufTy).Contents (Elt Ideal)) (i j k : Fin 384) :
    val_main_v49 (F := Ideal) x0 x1 (ix3 i j k)
      = rterm (val_main_v17 (F := Ideal) x0 (ix2 i j)) (val_main_v33 (F := Ideal) x1 (ix2 i j))
          (val_main_v33 (F := Ideal) x1 (ix2 i k)) (val_main_v19 (F := Ideal) x0 (ix2 i k)) := by
  rw [val_main_v49_apply, val_main_v48_apply, val_main_v47_apply, val_main_v46_apply, val_main_v45_apply,
    val_main_v43_apply, val_main_v44_apply, val_main_cst_10_apply, val_main_v42_apply, val_main_cst_9_apply,
    val_main_v41_apply, val_main_call2_v0_apply, val_main_call2_cst_apply, val_main_v40_apply, val_main_v39_apply,
    val_main_cst_8_apply, val_main_v38_apply, val_main_v36_apply, val_main_v34_apply, val_main_v37_apply,
    val_main_v35_apply, val_main_v24_apply, val_main_v22_apply, val_main_v20_apply, val_main_v23_apply,
    val_main_v21_apply, idx_v20_v22, idx_v21_v23, idx_v34_v36, idx_v35_v37]
  generalize val_main_v17 (F := Ideal) x0 = p
  generalize val_main_v19 (F := Ideal) x0 = n
  generalize val_main_v33 (F := Ideal) x1 = d
  rfl

/-- Dropping the last axis of the cube of triples leaves the pairwise table's shape. -/
theorem reduces_d2 : S384x384x384.Reduces [2] S384x384 := by decide

/-- The index over `(i, j)` with `k` inserted on the last axis is `(i, j, k)`. -/
theorem lift_ix2 (h : S384x384x384.Reduces [2] S384x384) (i j : Fin 384) (k : Fin 384) :
    h.lift (ix2 i j) k = ix3 i j k :=
  funext fun c => Fin.ext (by match c with | ⟨0, _⟩ => rfl | ⟨1, _⟩ => rfl | ⟨2, _⟩ => rfl)

/-- The maximum over the last axis, from `-∞`, of the weighted terms. -/
theorem v50_at (x0 x1 : (⟨S384x128, .f32⟩ : BufTy).Contents (Elt Ideal)) (i j : Fin 384) :
    val_main_v50 (F := Ideal) x0 x1 (ix2 i j)
      = rmax (val_main_v17 (F := Ideal) x0 (ix2 i j)) (val_main_v33 (F := Ideal) x1 (ix2 i j))
          (fun k => val_main_v33 (F := Ideal) x1 (ix2 i k)) (fun k => val_main_v19 (F := Ideal) x0 (ix2 i k)) := by
  unfold val_main_v50
  refine (Host.reduce_eq_fold_single (FloatOps.maximumf (F := Ideal) (φ := .f32)) (val_main_v49 (F := Ideal) x0 x1)
    (val_main_cst_11 (F := Ideal)) Gen.reducesTo_S384x384x384_S384x384_d2 reduces_d2 Gen.h_S_ (ix2 i j)).trans ?_
  unfold rmax
  refine Finset.fold_congr fun k _ => ?_
  exact (congrArg (val_main_v49 (F := Ideal) x0 x1) (lift_ix2 reduces_d2 i j k)).trans (v49_at x0 x1 i j k)

/-- The reference's entry `(i, j)`. -/
theorem ref_entry (x0 x1 : (⟨S384x128, .f32⟩ : BufTy).Contents (Elt Ideal)) (i j : Fin 384) :
    val_main_v56 (F := Ideal) x0 x1 (ix2 i j)
      = Cert.Triplet.rentry (val_main_v17 (F := Ideal) x0 (ix2 i j)) (val_main_v33 (F := Ideal) x1 (ix2 i j))
          (fun k => val_main_v33 (F := Ideal) x1 (ix2 i k)) (fun k => val_main_v19 (F := Ideal) x0 (ix2 i k)) := by
  rw [val_main_v56_apply, val_main_v55_apply, val_main_v53_apply, val_main_v52_apply, val_main_v54_apply,
    val_main_cst_13_apply, val_main_v51_apply, val_main_cst_12_apply, v50_at]
  rfl

/-- The positive-pair weight is an exponential: nonnegative on all of the extended reals. -/
theorem pw_nonneg (x0 : (⟨S384x128, .f32⟩ : BufTy).Contents (Elt Ideal)) (idx : S384x384.Idx) :
    0 ≤ val_main_v17 (F := Ideal) x0 idx := by
  rw [val_main_v17_apply, Ideal.hostUnary_exp_def]
  generalize val_main_v16 (F := Ideal) x0 idx = y
  induction y using EReal.rec with
  | bot => rw [Ideal.exp_bot]
  | coe r => rw [Ideal.exp_coe]; exact EReal.coe_nonneg.2 (Real.exp_pos r).le
  | top => rw [Ideal.exp_top]; exact le_top

end Cert.Triplet.RefEntry

end
-- ==== Proof.Finite.lean ====
/-
  Finiteness.  The precondition states that every element of both inputs has absolute value below +∞;
  for an extended real that says the element is a real number.  From real inputs, every stage of the
  pairwise-distance computation stays real: a sum of squares is a nonnegative real, its square root is a
  real, the maximum with the positive constant is a positive real, a real divided by a nonzero real is a
  real, a finite sum of products of reals is a real, and one minus a real is a real.
-/
import proofs.«143395_j43215960932893_2_alg».proof.Proof.Gen.ReferenceIdeal.Read
import proofs.«143395_j43215960932893_2_alg».proof.Pre_finite_inputs
import proofs.«143395_j43215960932893_2_alg».proof.Proof.Gen.Pre_finite_inputs
import Idealize.ShloMosaic.Lib.ReduceAll
import Idealize.ShloMosaic.Lib.ValueIdx
import Idealize.ShloMosaic.PureOps.Ideal.Laws

noncomputable section

namespace Cert.Triplet.Finite

open Idealize.ShloMosaic Idealize.ShloMosaic.ValueIdx

/-! ## The precondition: every input element is a real number -/

/-- The word 0x7F800000 is +∞. -/
theorem ofBits_inf : Ideal.ofBits .f32 0x7F800000#32 = (⊤ : EReal) := by
  simp [Ideal.ofBits, Ideal.ieee]

/-- An extended real whose absolute value max x (-x) is below +∞ is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The precondition read back: both inputs hold real numbers only.  The claim is the conjunction of two
    reductions by "and" over all indices of the comparison |x| < +∞. -/
theorem args_real [Cert.Pre_finite_inputs.Facts] (x0 x1 : FVec Ideal Cert.Pre_finite_inputs.S384x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only at h0
  obtain ⟨ha, hb⟩ := IntOp.andi_eq_one.1 h0
  refine ⟨fun i => ?_, fun i => ?_⟩
  · have e := Host.reduce_andi_all _ _ _ _ _ ha i
    have e' : Ideal.cmp .olt (max (x0 i) (-(x0 i))) (Ideal.ofBits .f32 0x7F800000#32) = 1#1 := e
    rw [ofBits_inf] at e'
    exact real_of_abs_lt_top _ e'
  · have e := Host.reduce_andi_all _ _ _ _ _ hb i
    have e' : Ideal.cmp .olt (max (x1 i) (-(x1 i))) (Ideal.ofBits .f32 0x7F800000#32) = 1#1 := e
    rw [ofBits_inf] at e'
    exact real_of_abs_lt_top _ e'

/-! ## The pairwise distances are real numbers -/

open Cert.ReferenceIdeal Cert.ReferenceIdeal.Read

/-- The inclusion of the reals commutes with finite sums. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of real numbers is a real number. -/
theorem sum_real {ι : Type*} [Fintype ι] (f : ι → EReal) (hf : ∀ k, ∃ r : ℝ, f k = (r : EReal)) :
    ∃ r : ℝ, ∑ k, f k = (r : EReal) := by
  choose g hg using hf
  exact ⟨∑ k, g k, by rw [coe_sum]; exact Finset.sum_congr rfl fun k _ => hg k⟩

/-- A finite sum of nonnegative real numbers is a nonnegative real number. -/
theorem sum_real_nonneg {ι : Type*} [Fintype ι] (f : ι → EReal)
    (hf : ∀ k, ∃ r : ℝ, 0 ≤ r ∧ f k = (r : EReal)) : ∃ r : ℝ, 0 ≤ r ∧ ∑ k, f k = (r : EReal) := by
  choose g hg0 hg using hf
  exact ⟨∑ k, g k, Finset.sum_nonneg fun k _ => hg0 k,
    by rw [coe_sum]; exact Finset.sum_congr rfl fun k _ => hg k⟩

/-- The word 0x2B8CBCCC (about 1e-12) is the real number 9223372 · 2⁻⁶³. -/
theorem ofBits_eps_val :
    Ideal.ofBits .f32 0x2B8CBCCC#32 = ((9223372 * (2 : ℝ) ^ (-63 : ℤ) : ℝ) : EReal) := by
  simp [Ideal.ofBits, Ideal.ieee, -EReal.coe_mul]

/-- The word 0x2B8CBCCC is a positive real number. -/
theorem ofBits_eps : ∃ e : ℝ, 0 < e ∧ Ideal.ofBits .f32 0x2B8CBCCC#32 = (e : EReal) :=
  ⟨_, by positivity, ofBits_eps_val⟩

/-- The word 0x3F800000 is the real number 1. -/
theorem ofBits_one : Ideal.ofBits .f32 0x3F800000#32 = ((1 : ℝ) : EReal) := by
  simp [Ideal.ofBits, Ideal.ieee, -EReal.coe_mul]; norm_num

section Stages

variable (x1 : (⟨Cert.ReferenceIdeal.S384x128, .f32⟩ : BufTy).Contents (Elt Ideal))
  (hx : ∀ i, ∃ r : ℝ, x1 i = (r : EReal))
include hx

/-- The square of an element is a nonnegative real. -/
theorem sq_real (i : S384x128.Idx) :
    ∃ r : ℝ, 0 ≤ r ∧ val_main_call1_v0 (F := Ideal) x1 i = (r : EReal) := by
  obtain ⟨r, hr⟩ := hx i
  refine ⟨r * r, mul_self_nonneg r, ?_⟩
  rw [val_main_call1_v0_apply, hr, Ideal.mulf_def, EReal.coe_mul]

/-- The sum of squares along a row is a nonnegative real. -/
theorem sumsq_real (i : S384.Idx) :
    ∃ r : ℝ, 0 ≤ r ∧ val_main_call1_v1 (F := Ideal) x1 i = (r : EReal) := by
  obtain ⟨r, h0, hr⟩ := sum_real_nonneg
    (fun k : Fin 128 => val_main_call1_v0 (F := Ideal) x1 (idx_main_call1_v1 i k))
    (fun k => sq_real x1 hx _)
  refine ⟨r, h0, ?_⟩
  rw [val_main_call1_v1_apply, val_main_call1_cst_apply, Ideal.ofBits_def, Ideal.ofBits_zero_f32, zero_add]
  exact hr

/-- The same sums, as a column. -/
theorem col_real (i : S384x1.Idx) :
    ∃ r : ℝ, 0 ≤ r ∧ val_main_call1_v2 (F := Ideal) x1 i = (r : EReal) := by
  rw [val_main_call1_v2_apply]
  exact sumsq_real x1 hx _

/-- The row norm, the square root of a nonnegative real, is a real. -/
theorem norm_real (i : S384x1.Idx) : ∃ r : ℝ, val_main_v25 (F := Ideal) x1 i = (r : EReal) := by
  obtain ⟨r, h0, hr⟩ := col_real x1 hx i
  refine ⟨Real.sqrt r, ?_⟩
  rw [val_main_v25_apply, hr, Ideal.hostUnary_sqrt_def, Ideal.sqrt_coe, if_neg (not_lt.2 h0)]

/-- The norm clamped from below by the positive constant is a positive real. -/
theorem clamp_real (i : S384x1.Idx) :
    ∃ r : ℝ, 0 < r ∧ val_main_v27 (F := Ideal) x1 i = (r : EReal) := by
  obtain ⟨r, hr⟩ := norm_real x1 hx i
  obtain ⟨e, he, hE⟩ := ofBits_eps
  refine ⟨max r e, lt_max_of_lt_right he, ?_⟩
  rw [val_main_v27_apply, hr, val_main_v26_apply, val_main_cst_6_apply, Ideal.ofBits_def, hE,
    Ideal.maximumf_def]
  exact (EReal.coe_strictMono.monotone.map_max).symm

/-- The clamped norm, repeated along each row. -/
theorem clampB_real (i : S384x128.Idx) :
    ∃ r : ℝ, 0 < r ∧ val_main_v28 (F := Ideal) x1 i = (r : EReal) := by
  rw [val_main_v28_apply]
  exact clamp_real x1 hx _

/-- A normalized element, a real divided by a positive real, is a real. -/
theorem unit_real (i : S384x128.Idx) : ∃ r : ℝ, val_main_v29 (F := Ideal) x1 i = (r : EReal) := by
  obtain ⟨a, ha⟩ := hx i
  obtain ⟨b, hb0, hb⟩ := clampB_real x1 hx i
  refine ⟨a * b⁻¹, ?_⟩
  rw [val_main_v29_apply, ha, hb, Ideal.hostDivf_def, Ideal.div, if_neg (EReal.coe_ne_zero.2 hb0.ne'),
    ← EReal.coe_inv, ← EReal.coe_mul]

/-- The transposed normalized element is a real. -/
theorem unitT_real (i : S128x384.Idx) : ∃ r : ℝ, val_main_v30 (F := Ideal) x1 i = (r : EReal) := by
  rw [val_main_v30_apply]
  exact unit_real x1 hx _

/-- The inner product of two normalized rows is a real. -/
theorem gram_real (i : S384x384.Idx) : ∃ r : ℝ, val_main_v31 (F := Ideal) x1 i = (r : EReal) := by
  rw [val_main_v31_apply]
  refine sum_real _ fun k => ?_
  obtain ⟨a, ha⟩ := unit_real x1 hx (lidx_main_v31 i k)
  obtain ⟨b, hb⟩ := unitT_real x1 hx (ridx_main_v31 i k)
  exact ⟨a * b, by rw [ha, hb, EReal.coe_mul]⟩

end Stages

/-- The pairwise distance, one minus the inner product of the normalized rows, is a real number. -/
theorem dist_real (x1 : (⟨Cert.ReferenceIdeal.S384x128, .f32⟩ : BufTy).Contents (Elt Ideal))
    (hx : ∀ i, ∃ r : ℝ, x1 i = (r : EReal)) (idx : Cert.ReferenceIdeal.S384x384.Idx) :
    ∃ r : ℝ, Cert.ReferenceIdeal.Read.val_main_v33 (F := Ideal) x1 idx = (r : EReal) := by
  obtain ⟨g, hg⟩ := gram_real x1 hx idx
  refine ⟨1 - g, ?_⟩
  rw [val_main_v33_apply, hg, val_main_v32_apply, val_main_cst_7_apply, Ideal.ofBits_def, ofBits_one,
    Ideal.subf_def, EReal.coe_sub]

end Cert.Triplet.Finite

end
-- ==== Proof.Bridge.lean ====
/-
  The reference's output table is the table `G` of the triplet specification, read off the reference's own three
  pairwise tables: the distances, the negative-pair weights and the positive-pair weights.

  Entry by entry: the reference's entry `(i, j)` is its own form of the triplet entry; the distances are real
  numbers when the inputs are, and the positive-pair weight is an exponential, hence nonnegative; so the
  reference's form and the kernel's form of the entry agree.
-/
import proofs.«143395_j43215960932893_2_alg».proof.Proof.SpecLaw
import proofs.«143395_j43215960932893_2_alg».proof.Proof.RefEntry
import proofs.«143395_j43215960932893_2_alg».proof.Proof.Finite

noncomputable section

namespace Cert.Triplet.Bridge

open Idealize.ShloMosaic Idealize.ShloMosaic.ValueIdx

/-- With real distances and nonnegative positive-pair weights, a table whose entries have the reference's
    form is the table `G`. -/
theorem table_eq (out d n p : S2.Idx → EReal)
    (hout : ∀ i j : Fin 384, out (ix2 i j)
      = rentry (p (ix2 i j)) (d (ix2 i j)) (fun k => d (ix2 i k)) (fun k => n (ix2 i k)))
    (hd : ∀ idx, ∃ r : ℝ, d idx = (r : EReal)) (hp : ∀ idx, 0 ≤ p idx) :
    out = G d n p := by
  funext idx
  obtain ⟨i, j, rfl⟩ : ∃ (i j : Fin 384), idx = ix2 i j := ⟨idx 0, idx 1, eq_ix2 idx⟩
  rw [G_ix2, hout]
  unfold entryAt
  choose r hr using hd
  have hfun : (fun k : Fin 384 => d (ix2 i k)) = fun k => ((r (ix2 i k) : ℝ) : EReal) :=
    funext fun k => hr (ix2 i k)
  rw [hfun, hr (ix2 i j)]
  exact (entry_eq _ (hp _) _ _ _).symm

/-- The reference's output table is `G` of its distances, negative-pair weights and positive-pair weights. -/
theorem ref_table (x0 x1 : (⟨Cert.ReferenceIdeal.S384x128, .f32⟩ : BufTy).Contents (Elt Ideal)) (hx : ∀ i, ∃ r : ℝ, x1 i = (r : EReal)) :
    Cert.ReferenceIdeal.Read.val_main_v56 (F := Ideal) x0 x1
      = Cert.Triplet.G (Cert.ReferenceIdeal.Read.val_main_v33 (F := Ideal) x1) (Cert.ReferenceIdeal.Read.val_main_v19 (F := Ideal) x0) (Cert.ReferenceIdeal.Read.val_main_v17 (F := Ideal) x0) :=
  table_eq _ _ _ _ (fun i j => Cert.Triplet.RefEntry.ref_entry x0 x1 i j)
    (fun idx => Cert.Triplet.Finite.dist_real x1 hx idx) (fun idx => Cert.Triplet.RefEntry.pw_nonneg x0 idx)

end Cert.Triplet.Bridge

end
-- ==== Proof.lean ====
/-
  The proof of `Cert.Claim`: the kernel program (a row-tiled triplet term: for each pair `(i, j)` the
  positive-pair weight times the maximum over `k` of the kept margin difference times the negative-pair weight,
  then a weighted mean of the table) against its reference (the same quantity through a `[384, 384, 384]`
  tensor), at the ideal values.

  Both programs compute the pairwise cosine distances of the two arguments' rows and the pair weights by the
  same host operations; the kernel's table is `Cert.Triplet.G` of them (Proof/KFinal.lean), the reference's
  table equals `G` of them because the distances of finite inputs are real numbers and the positive-pair weight
  is nonnegative (Proof/Bridge.lean over Proof/SpecLaw.lean, Proof/RefEntry.lean, Proof/Finite.lean), and both end
  with the same guarded weighted mean (Proof/Tail.lean).  The ideal pass rewrote nothing, so `preserves` is `True`.
-/
import proofs.«143395_j43215960932893_2_alg».proof.Defs
import proofs.«143395_j43215960932893_2_alg».proof.Proof.Gen.Kernel
import proofs.«143395_j43215960932893_2_alg».proof.Proof.Gen.Kernel.Frame
import proofs.«143395_j43215960932893_2_alg».proof.Proof.Gen.KernelIdeal
import proofs.«143395_j43215960932893_2_alg».proof.Proof.Gen.KernelIdeal.Frame
import proofs.«143395_j43215960932893_2_alg».proof.Proof.Gen.ReferenceIdeal
import proofs.«143395_j43215960932893_2_alg».proof.Proof.Gen.ReferenceIdeal.Run
import proofs.«143395_j43215960932893_2_alg».proof.Proof.Gen.ReferenceIdeal.Read
import proofs.«143395_j43215960932893_2_alg».proof.Proof.Gen.Pre_finite_inputs
import proofs.«143395_j43215960932893_2_alg».proof.Proof.KRun
import proofs.«143395_j43215960932893_2_alg».proof.Proof.RefTail
import proofs.«143395_j43215960932893_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the guarded weighted mean of the same table under the same weights: the kernel's table is
    `G` of the three pairwise tables, and so is the reference's once the second argument's entries are real
    numbers, which the precondition gives. -/
theorem algebraic : Cert.algebraic_KernelIdeal_ReferenceIdeal := by
  intro m ρ m' ρ' hpre hagree
  refine ⟨fun c => Cert.Triplet.KRun.kres m c, Cert.Triplet.KRun.krun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2, Cert.Triplet.RefTail.ref_tail,
    Cert.Triplet.Bridge.ref_table _ _ (Cert.Triplet.Finite.args_real _ _ (hpre c)).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
